-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000x128 : Shape := ⟨2, ![1600000, 128]⟩
abbrev S50000 : Shape := ⟨1, ![50000]⟩
abbrev S50000x32 : Shape := ⟨2, ![50000, 32]⟩
abbrev S100001x1 : Shape := ⟨2, ![100001, 1]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S100001x1 : S_.BroadcastsInDim S100001x1 (![] : Fin 0 → Fin S100001x1.rank)
  reducesTo_S100001x1_S_d0_1 : S100001x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S1600000x128 .f32) (main_arg2 : IVec S50000 32) (main_arg3 : IVec S50000x32 32) (main_arg4 : FVec F S100001x1 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S100001x1 .f32 := Host.absf main_arg4
  let main_cst_2 : FVec F S_ .f32 := constant S_ .f32 0x7F800000#32
  let main_v10 : FVec F S100001x1 .f32 := broadcastInDim S100001x1 ![] bcast_S_S100001x1 main_cst_2
  let main_v11 : IVec S100001x1 1 := cmpf .olt main_v9 main_v10
  let main_c_3 : IVec S_ 1 := constantI S_ 1 1#1
  let main_v12 : IVec S_ 1 := (fun x v => Host.reduce IntOp.andi x v reducesTo_S100001x1_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S1600000x128 : Shape := ⟨2, ![1600000, 128]⟩
abbrev S50000 : Shape := ⟨1, ![50000]⟩
abbrev S50000x32 : Shape := ⟨2, ![50000, 32]⟩
abbrev S100001x1 : Shape := ⟨2, ![100001, 1]⟩
abbrev S128x128 : Shape := ⟨2, ![128, 128]⟩
abbrev S128 : Shape := ⟨1, ![128]⟩
abbrev S100001 : Shape := ⟨1, ![100001]⟩
abbrev S_ : Shape := ⟨0, ![]⟩
abbrev S50000x32x1 : Shape := ⟨3, ![50000, 32, 1]⟩
abbrev S50000x32x128 : Shape := ⟨3, ![50000, 32, 128]⟩
abbrev S1x128 : Shape := ⟨2, ![1, 128]⟩
abbrev S1000x32 : Shape := ⟨2, ![1000, 32]⟩
abbrev S1000x32x128 : Shape := ⟨3, ![1000, 32, 128]⟩
abbrev S1000x128 : Shape := ⟨2, ![1000, 128]⟩
abbrev S1000 : Shape := ⟨1, ![1000]⟩
abbrev S1000x1 : Shape := ⟨2, ![1000, 1]⟩
abbrev S1000x32x1 : Shape := ⟨3, ![1000, 32, 1]⟩

abbrev nBuf : Space → Nat
  | .hbm => 20
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S1600000x128, .f32⟩
  | .hbm, ⟨2, _⟩ => ⟨S50000, .i32⟩
  | .hbm, ⟨3, _⟩ => ⟨S50000x32, .i32⟩
  | .hbm, ⟨4, _⟩ => ⟨S100001x1, .f32⟩
  | .hbm, ⟨5, _⟩ => ⟨S128x128, .f32⟩
  | .hbm, ⟨6, _⟩ => ⟨S128, .f32⟩
  | .hbm, ⟨7, _⟩ => ⟨S100001, .f32⟩
  | .hbm, ⟨8, _⟩ => ⟨S_, .i32⟩
  | .hbm, ⟨9, _⟩ => ⟨S50000x32, .i32⟩
  | .hbm, ⟨10, _⟩ => ⟨S50000x32, .i1⟩
  | .hbm, ⟨11, _⟩ => ⟨S_, .i32⟩
  | .hbm, ⟨12, _⟩ => ⟨S50000x32, .i32⟩
  | .hbm, ⟨13, _⟩ => ⟨S50000x32, .i32⟩
  | .hbm, ⟨14, _⟩ => ⟨S50000x32, .i32⟩
  | .hbm, ⟨15, _⟩ => ⟨S50000x32x1, .i32⟩
  | .hbm, ⟨16, _⟩ => ⟨S50000x32, .f32⟩
  | .hbm, ⟨17, _⟩ => ⟨S50000x32x128, .f32⟩
  | .hbm, ⟨18, _⟩ => ⟨S1x128, .f32⟩
  | .hbm, ⟨19, _⟩ => ⟨S50000x128, .f32⟩
  | .local _ .vmem, ⟨0, _⟩ => ⟨S1000x32, .f32⟩
  | .local _ .vmem, ⟨1, _⟩ => ⟨S1000x32, .f32⟩
  | .local _ .vmem, ⟨2, _⟩ => ⟨S1000x32x128, .f32⟩
  | .local _ .vmem, ⟨3, _⟩ => ⟨S1000x32x128, .f32⟩
  | .local _ .vmem, ⟨4, _⟩ => ⟨S128x128, .f32⟩
  | .local _ .vmem, ⟨5, _⟩ => ⟨S1x128, .f32⟩
  | .local _ .vmem, ⟨6, _⟩ => ⟨S1000x128, .f32⟩
  | .local _ .vmem, ⟨7, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S100001x1_S100001 : S100001x1.ShapeCasts S100001
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  shapeCasts_S1600000x128_S50000x32x128 : S1600000x128.ShapeCasts S50000x32x128
  shapeCasts_S128_S1x128 : S128.ShapeCasts S1x128
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  reduces_S1000x32_S1000 : S1000x32.Reduces [1] S1000
  shapeCasts_S1000_S1000x1 : S1000.ShapeCasts S1000x1
  broadcasts_S1000x1_S1000x32 : S1000x1.Broadcasts S1000x32
  inb_S1000x32x128_S1000x32x128_0_0_0 : ∀ a, (![0, 0, 0] : Fin 3 → Nat) a + S1000x32x128.size a ≤ S1000x32x128.size a
  h_S1000x32x128 : 0 < S1000x32x128.numel
  shapeCasts_S1000x32x128_S1000x32x128 : S1000x32x128.ShapeCasts S1000x32x128
  shapeCasts_S1000x32_S1000x32x1 : S1000x32.ShapeCasts S1000x32x1
  broadcasts_S1000x32x1_S1000x32x128 : S1000x32x1.Broadcasts S1000x32x128
  reduces_S1000x32x128_S1000x128 : S1000x32x128.Reduces [1] S1000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  gather_S100001_S50000x32x1_S50000x32_n_0_n_n_0_2_1_wf : GatherDims.WF S100001 S50000x32x1 S50000x32 [] [0] [] [0] [] 2 ![1]
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x32.size a ≤ S50000x32.size a
  hwx0_0 : ∀ i : grid0.Coords, EltTy.bits .f32 = 32 ∨ (Rect.block (s := S50000x32) S1000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x32x128.size a ≤ S50000x32x128.size a
  hwx0_1 : ∀ i : grid0.Coords, EltTy.bits .f32 = 32 ∨ (Rect.block (s := S50000x32x128) S1000x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S50000x128.size a
  hwx0_4 : ∀ i : grid0.Coords, EltTy.bits .f32 = 32 ∨ (Rect.block (s := S50000x128) S1000x128.size (cc0_transform_4 i) (hinb0_4 i)).WholeWords (EltTy.packing .f32)

variable [Facts₀]

def gather_S100001_S50000x32x1_S50000x32_n_0_n_n_0_2_1 : GatherDims S100001 S50000x32x1 S50000x32 where
  offsetDims := []
  collapsedSliceDims := [0]
  operandBatchingDims := []
  startIndicesBatchingDims := []
  startIndexMap := [0]
  indexVectorDim := 2
  sliceSizes := ![1]
  wf := gather_S100001_S50000x32x1_S50000x32_n_0_n_n_0_2_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v7) S1000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1000x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S1600000x128 : Shape := ⟨2, ![1600000, 128]⟩
abbrev S50000 : Shape := ⟨1, ![50000]⟩
abbrev S50000x32 : Shape := ⟨2, ![50000, 32]⟩
abbrev S100001x1 : Shape := ⟨2, ![100001, 1]⟩
abbrev S128x128 : Shape := ⟨2, ![128, 128]⟩
abbrev S128 : Shape := ⟨1, ![128]⟩
abbrev S_ : Shape := ⟨0, ![]⟩
abbrev S50000x32x1 : Shape := ⟨3, ![50000, 32, 1]⟩
abbrev S50000x1 : Shape := ⟨2, ![50000, 1]⟩
abbrev S50000x32x128 : Shape := ⟨3, ![50000, 32, 128]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000x128, .f32⟩
  | .hbm, ⟨2, _⟩ => ⟨S50000, .i32⟩
  | .hbm, ⟨3, _⟩ => ⟨S50000x32, .i32⟩
  | .hbm, ⟨4, _⟩ => ⟨S100001x1, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S50000x32, .i32⟩
  | .hbm, ⟨9, _⟩ => ⟨S50000x32, .i1⟩
  | .hbm, ⟨10, _⟩ => ⟨S_, .i32⟩
  | .hbm, ⟨11, _⟩ => ⟨S50000x32, .i32⟩
  | .hbm, ⟨12, _⟩ => ⟨S50000x32, .i32⟩
  | .hbm, ⟨13, _⟩ => ⟨S50000x32, .i32⟩
  | .hbm, ⟨14, _⟩ => ⟨S50000x32x1, .i32⟩
  | .hbm, ⟨15, _⟩ => ⟨S50000x32x1, .f32⟩
  | .hbm, ⟨16, _⟩ => ⟨S50000x32, .f32⟩
  | .hbm, ⟨17, _⟩ => ⟨S_, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x32, .f32⟩
  | .hbm, ⟨24, _⟩ => ⟨S50000x32, .f32⟩
  | .hbm, ⟨25, _⟩ => ⟨S50000x32, .f32⟩
  | .hbm, ⟨26, _⟩ => ⟨S_, .f32⟩
  | .hbm, ⟨27, _⟩ => ⟨S50000, .f32⟩
  | .hbm, ⟨28, _⟩ => ⟨S50000x1, .f32⟩
  | .hbm, ⟨29, _⟩ => ⟨S50000x32, .f32⟩
  | .hbm, ⟨30, _⟩ => ⟨S50000x32, .f32⟩
  | .hbm, ⟨31, _⟩ => ⟨S50000x32x1, .f32⟩
  | .hbm, ⟨32, _⟩ => ⟨S50000x32x128, .f32⟩
  | .hbm, ⟨33, _⟩ => ⟨S50000x32x128, .f32⟩
  | .hbm, ⟨34, _⟩ => ⟨S50000x32x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  shapeCasts_S50000x32x1_S50000x32 : S50000x32x1.ShapeCasts S50000x32
  reducesTo_S50000x32_S50000_d1 : S50000x32.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  shapeCasts_S1600000x128_S50000x32x128 : S1600000x128.ShapeCasts S50000x32x128
  bcast_S50000x32x1_S50000x32x128_0_1_2 : S50000x32x1.BroadcastsInDim S50000x32x128 (![0, 1, 2] : Fin 3 → Fin S50000x32x128.rank)
  reducesTo_S50000x32x128_S50000x128_d1 : S50000x32x128.ReducesTo [1] S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S100001x1_S50000x32x1_S50000x32x1_2_0_n_n_0_2_11_wf : GatherDims.WF S100001x1 S50000x32x1 S50000x32x1 [2] [0] [] [0] [] 2 ![1, 1]
  dot_S50000x128_S128x128_S50000x128_1_0_0_1_n_n_wf : DotDims.WF S50000x128 S128x128 S50000x128 [1] [0] [0] [1] [] []

variable [Facts₀]

def gather_S100001x1_S50000x32x1_S50000x32x1_2_0_n_n_0_2_11 : GatherDims S100001x1 S50000x32x1 S50000x32x1 where
  offsetDims := [2]
  collapsedSliceDims := [0]
  operandBatchingDims := []
  startIndicesBatchingDims := []
  startIndexMap := [0]
  indexVectorDim := 2
  sliceSizes := ![1, 1]
  wf := gather_S100001x1_S50000x32x1_S50000x32x1_2_0_n_n_0_2_11_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The result both programs compute, as one function of the arrays.

  For node `r` with neighbour weights `g k` (k < 32), neighbour features `f k j` (j < 128), a 128×128 matrix
  `W` and a bias row `b`:

    M      = max(-∞, max_k g k)                       (the row's largest weight, from -∞)
    e k    = exp (g k - M)
    s k    = e k / Σ_k' e k'                           (the softmax weight of neighbour k)
    a j    = Σ_k s k · f k j                           (the weighted neighbour feature)
    out d  = (Σ_j a j · W j d) + b d

  over the extended reals, with division the ideal one. `rowOut` is `out`; `result` lays it over all 50000
  nodes. The weights come from a table of 100001 scalars read at an integer index that is first moved into range
  the way array indexing does it (a negative index counts from the end, then the index is clamped to the table):
  `weights`. The neighbour features are the rows of a 1600000×128 array taken 32 at a time: `features`.
-/
import Idealize.ShloMosaic.PureOps.Ideal
import Idealize.ShloMosaic.Lib.ValueIdx

noncomputable section

open scoped BigOperators

namespace Cert.NeighborAgg

open Idealize.ShloMosaic Idealize.ShloMosaic.ValueIdx

/-- The word both programs start a maximum from: -∞. -/
abbrev negInf : EReal := Ideal.ofBits .f32 0xFF800000#32

/-- The largest of a row's 32 weights, taken from -∞ and compared with -∞ once more. -/
def rowMax (g : Fin 32 → EReal) : EReal :=
  max negInf ((Finset.univ : Finset (Fin 32)).fold max negInf g)

/-- A weight's exponential after the row's maximum is subtracted. -/
def expShift (g : Fin 32 → EReal) (k : Fin 32) : EReal := Ideal.exp (g k - rowMax g)

/-- The softmax weight of neighbour `k`. -/
def softw (g : Fin 32 → EReal) (k : Fin 32) : EReal := Ideal.div (expShift g k) (∑ k' : Fin 32, expShift g k')

/-- The weighted neighbour feature `j`. -/
def agg (g : Fin 32 → EReal) (f : Fin 32 → Fin 128 → EReal) (j : Fin 128) : EReal := ∑ k : Fin 32, softw g k * f k j

/-- One node's output row: the weighted feature times the matrix, plus the bias. -/
def rowOut (g : Fin 32 → EReal) (f : Fin 32 → Fin 128 → EReal) (W : Fin 128 → Fin 128 → EReal) (b : Fin 128 → EReal)
    (d : Fin 128) : EReal :=
  (∑ j : Fin 128, agg g f j * W j d) + b d

/-- The whole result: row `r` from row `r` of the weights and slab `r` of the features. -/
def result (wt : (⟨2, ![50000, 32]⟩ : Shape).Idx → EReal) (ft : (⟨3, ![50000, 32, 128]⟩ : Shape).Idx → EReal)
    (W : (⟨2, ![128, 128]⟩ : Shape).Idx → EReal) (b : (⟨2, ![1, 128]⟩ : Shape).Idx → EReal) :
    (⟨2, ![50000, 128]⟩ : Shape).Idx → EReal :=
  fun i => rowOut (fun k => wt (ix2 (i 0 : Fin 50000) k)) (fun k j => ft (ix3 (i 0 : Fin 50000) k j))
    (fun j d => W (ix2 j d)) (fun d => b (ix2 (0 : Fin 1) d)) (i 1 : Fin 128)

/-- An index into the table as array indexing reads it: a negative one counts from the end (100001 is added). -/
def wrapIdx (x : BitVec 32) : BitVec 32 :=
  Scalar.select (IntOp.cmpi .slt x 0#32) (IntOp.addi x 100001#32) x

/-- The table row an index word selects: read signed, clamped into 0 … 100000. -/
def tableRow (x : BitVec 32) : Fin 100001 := ⟨min (wrapIdx x).toInt.toNat 100000, by omega⟩

/-- The weights: the table's scalar at each node's each neighbour index. -/
def weights (emb : (⟨2, ![100001, 1]⟩ : Shape).Idx → EReal) (ids : (⟨2, ![50000, 32]⟩ : Shape).Idx → BitVec 32) :
    (⟨2, ![50000, 32]⟩ : Shape).Idx → EReal :=
  fun i => emb (ix2 (tableRow (ids i)) (0 : Fin 1))

/-- The features: rows `32 r + k` of the flat array as slab `r`, row `k`. -/
def features (x : (⟨2, ![1600000, 128]⟩ : Shape).Idx → EReal) : (⟨3, ![50000, 32, 128]⟩ : Shape).Idx → EReal :=
  fun i => x (ix2 (⟨(i 0).val * 32 + (i 1).val, by
    have h0 : (i 0).val < 50000 := (i 0).isLt
    have h1 : (i 1).val < 32 := (i 1).isLt
    omega⟩ : Fin 1600000) (i 2 : Fin 128))

/-- The bias as one row. -/
def biasRow (b : (⟨1, ![128]⟩ : Shape).Idx → EReal) : (⟨2, ![1, 128]⟩ : Shape).Idx → EReal :=
  fun i => b (ix1 (i 1 : Fin 128))

end Cert.NeighborAgg

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibRowOps.lean ====
/-
  Rows of a matrix and slabs of a rank-3 array, read at an entry.

  * The largest entry of each row of an `[m, n]` array, taken from a starting word: at row `p` it is the fold of
    `max` over the `n` entries of that row; the same for the host's reduction with a maximum body from an initial
    value.
  * An `[a, b]` array cast to `[a, b, 1]` reads, at `(p, k, u)`, the entry `(p, k)`; spread over `[a, b, c]`
    it reads, at `(p, k, j)`, the entry `(p, k, 0)`: a per-row, per-column scalar laid along the last axis.
  * A sum of an `[a, b, c]` array along its middle axis reads, at `(p, j)`, the sum over `k` of the entries
    `(p, k, j)`.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- Putting the dropped column coordinate `k` back into the row index `p` gives the entry `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float maximum along the second axis from the word `acc`, read at row `p`: the fold of `max` over that
    row's entries, from the word's value. -/
theorem rowMax_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (p : Fin m) :
    multiReduction .maximumf [1] (⟨1, ![m]⟩ : Shape) src acc h hφ hacc (ix1 p)
      = (Finset.univ : Finset (Fin n)).fold max (Ideal.ofBits .f32 acc) (fun k => src (ix2 p k)) := by
  refine (Ideal.multiReduction_maximumf_single src acc h hφ hacc (ix1 p)).trans ?_
  have hf : (src ∘ h.lift (ix1 p)) = fun k : Fin n => src (ix2 p k) := funext fun k => congrArg src (lift_row h p k)
  exact congrArg (fun f => Finset.fold max (Ideal.ofBits .f32 acc) f (Finset.univ : Finset (Fin n))) hf

/-- The host's reduction with a maximum body along the second axis, read at row `p`: the fold of `max` over that
    row's entries, from the initial value. -/
theorem hostRowMax_apply {m n : ℕ} {u : Shape} (x : (⟨2, ![m, n]⟩ : Shape).Idx → Ideal .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (p : Fin m) :
    Host.reduce FloatOps.maximumf x init h' hu (ix1 p)
      = (Finset.univ : Finset (Fin n)).fold max (init (Shape.Idx.first hu)) (fun k => x (ix2 p k)) := by
  refine (Host.reduce_eq_fold_single FloatOps.maximumf x init h' h hu (ix1 p)).trans ?_
  have hf : (x ∘ h.lift (ix1 p)) = fun k : Fin n => x (ix2 p k) := funext fun k => congrArg x (lift_row h p k)
  exact congrArg (fun f => Finset.fold max (init (Shape.Idx.first hu)) f (Finset.univ : Finset (Fin n))) hf

/-- An `[a, b]` array cast to `[a, b, 1]` reads, at `(p, k, u)`, the array at `(p, k)`: both positions are the
    same one in row-major order. -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_three, Shape.rowMajor_val_two]
    show p.val * b + k.val = (p.val * b + k.val) * 1 + u.val
    rw [hu, Nat.mul_one, Nat.add_zero])

/-- An `[a, b, 1]` array spread over `[a, b, c]` reads, at `(p, k, j)`, the array at `(p, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (j : Fin c) :
    broadcastTo ⟨3, ![a, b, c]⟩ v h (ix3 p k j) = v (ix3 p k (0 : Fin 1)) := by
  refine broadcastTo_apply v h (ix3 p k j) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- Putting the dropped middle coordinate `k` back into `(p, j)` gives the entry `(p, k, j)`. -/
theorem lift_mid {a b c : ℕ} (h : (⟨3, ![a, b, c]⟩ : Shape).Reduces [1] (⟨2, ![a, c]⟩ : Shape)) (p : Fin a) (j : Fin c)
    (k : Fin ((⟨3, ![a, b, c]⟩ : Shape).size 1)) : h.lift (ix2 p j) k = ix3 p (⟨k.val, k.isLt⟩ : Fin b) j := by
  funext d; apply Fin.ext
  fin_cases d <;> rfl

/-- A float sum along the middle axis from the zero word, read at `(p, j)`: the sum over `k` of the entries
    `(p, k, j)`, on the extended reals. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (j : Fin c) :
    multiReduction .add [1] (⟨2, ![a, c]⟩ : Shape) src acc h hφ hacc (ix2 p j) = ∑ k : Fin b, src (ix3 p k j) := by
  refine (Ideal.multiReduction_add_single src acc h hφ hacc (ix2 p j)).trans ?_
  exact Finset.sum_congr rfl fun k _ => congrArg src (lift_mid h p j k)

end Cert.LibRowOps

end
-- ==== Proof.KernelRow.lean ====
/-
  The kernel's block of 1000 nodes, read at an entry.

  The body's one stored value is built in three stages from the loaded blocks: the softmax weights of the
  `[1000, 32]` weights block (row maximum, shifted exponentials, their row sum, the quotient), the weighted sum of
  the `[1000, 32, 128]` features block along the neighbour axis, and the product with the `[128, 128]` matrix plus
  the bias row. Each stage is named, the stored value is their composition, and at entry `(p, q)` it is the row
  function of the specification on row `p` of the weights block and slab `p` of the features block.
-/
import proofs.«112594_j50491635532346_2_alg».proof.Proof.Gen.KernelIdeal.Skeleton
import proofs.«112594_j50491635532346_2_alg».proof.Proof.Spec
import proofs.«112594_j50491635532346_2_alg».proof.Proof.LibKeepdims
import proofs.«112594_j50491635532346_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.NeighborAgg

/-! ## The matrix product at an entry -/

/-- The body's matrix product: `[1000, 128]` times `[128, 128]`, contracting the left's columns with the right's rows. -/
abbrev D : DotDims S1000x128 S128x128 S1000x128 := dot_S1000x128_S128x128_S1000x128_1_0_0_1_n_n

theorem lhs_row (i : S1000x128.Idx) (q : D.contr.Idx) : (D.lhsIdx i q 0).val = (i 0).val := by
  unfold DotDims.lhsIdx
  rw [dif_neg (show ¬(0 : Fin S1000x128.rank) ∈ D.lhsBatch by decide),
    dif_pos (show (0 : Fin S1000x128.rank) ∈ D.lhsNonContracting by decide)]
  rfl
theorem lhs_col (i : S1000x128.Idx) (q : D.contr.Idx) : (D.lhsIdx i q 1).val = (q ⟨0, by decide⟩).val :=
  D.lhsIdx_val_of_single rfl i q
theorem rhs_row (i : S1000x128.Idx) (q : D.contr.Idx) : (D.rhsIdx i q 0).val = (q ⟨0, by decide⟩).val :=
  D.rhsIdx_val_of_single rfl i q
theorem rhs_col (i : S1000x128.Idx) (q : D.contr.Idx) : (D.rhsIdx i q 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- Into a zero accumulator the product at `(p, q)` is the sum over `j` of left `(p, j)` times right `(j, q)`. -/
theorem matmul_entry (l : FVec Ideal S1000x128 .f32) (r : FVec Ideal S128x128 .f32) (p : Fin 1000) (q : Fin 128) :
    matmul D none l r (constant (F := Ideal) S1000x128 .f32 0x00000000#32) (ix2 p q)
      = ∑ j : Fin 128, l (ix2 p j) * r (ix2 j q) := by
  show FloatOps.matmul D none l r (constant (F := Ideal) S1000x128 .f32 0x00000000#32) (ix2 p q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 k q := funext fun a => Fin.ext (by
    match a with
    | ⟨0, _⟩ => exact (rhs_row _ _).trans hk
    | ⟨1, _⟩ => exact rhs_col _ _)
  rw [el, er]

/-! ## The stages of the stored value -/

/-- The weights block with each row's maximum subtracted. -/
def shiftV (x0 : FVec Ideal S1000x32 .f32) : FVec Ideal S1000x32 .f32 :=
  subf (shapeCast S1000x32 x0 shapeCasts_S1000x32_S1000x32)
    (broadcastTo S1000x32 (shapeCast S1000x1
      (maximumf (broadcast S1000 (Scalar.ofBits (F := Ideal) .f32 0xFF800000#32))
        (multiReduction .maximumf [1] S1000 (shapeCast S1000x32 x0 shapeCasts_S1000x32_S1000x32) 0xFF800000#32
          reduces_S1000x32_S1000 (.inl rfl) rfl))
      shapeCasts_S1000_S1000x1) broadcasts_S1000x1_S1000x32)

/-- Its exponentials. -/
def expV (x0 : FVec Ideal S1000x32 .f32) : FVec Ideal S1000x32 .f32 := exp (shiftV x0)

/-- The softmax weights: each exponential over its row's sum. -/
def softV (x0 : FVec Ideal S1000x32 .f32) : FVec Ideal S1000x32 .f32 :=
  divf (expV x0)
    (broadcastTo S1000x32 (shapeCast S1000x1
      (multiReduction .add [1] S1000 (expV x0) 0x00000000#32 reduces_S1000x32_S1000 (.inl rfl) rfl)
      shapeCasts_S1000_S1000x1) broadcasts_S1000x1_S1000x32)

/-- The weighted neighbour features: the weights laid along the feature axis, times the features, summed over the
    neighbours. -/
def aggV (x0 : FVec Ideal S1000x32 .f32) (x1 : FVec Ideal S1000x32x128 .f32) : FVec Ideal S1000x128 .f32 :=
  multiReduction .add [1] S1000x128
    (mulf (broadcastTo S1000x32x128 (shapeCast S1000x32x1 (softV x0) shapeCasts_S1000x32_S1000x32x1)
        broadcasts_S1000x32x1_S1000x32x128)
      (shapeCast S1000x32x128 x1 shapeCasts_S1000x32x128_S1000x32x128))
    0x00000000#32 reduces_S1000x32x128_S1000x128 (.inl rfl) rfl

/-- The stored value is the product of the weighted features with the matrix, plus the bias row on every row. -/
theorem pay_eq (x0 : FVec Ideal S1000x32 .f32) (x1 : FVec Ideal S1000x32x128 .f32) (x2 : FVec Ideal S128x128 .f32)
    (x3 : FVec Ideal S1x128 .f32) :
    k0_pay1 (F := Ideal) x0 x1 x2 x3
      = addf (matmul D none (aggV x0 x1) x2 (constant (F := Ideal) S1000x128 .f32 0x00000000#32))
          (broadcastTo S1000x128 (shapeCast S1x128 x3 shapeCasts_S1x128_S1x128) broadcasts_S1x128_S1000x128) := rfl

/-! ## Each stage at an entry -/

theorem shiftV_apply (x0 : FVec Ideal S1000x32 .f32) (p : Fin 1000) (k : Fin 32) :
    shiftV x0 (ix2 p k) = x0 (ix2 p k) - rowMax (fun k => x0 (ix2 p k)) := by
  unfold shiftV
  rw [shapeCast_self]
  show x0 (ix2 p k) - broadcastTo S1000x32 _ broadcasts_S1000x1_S1000x32 (ix2 p k) = _
  refine congrArg (x0 (ix2 p k) - ·) ?_
  refine (Cert.LibKeepdims.broadcastTo_a1_ab_apply _ broadcasts_S1000x1_S1000x32 p k).trans ?_
  refine (Cert.LibKeepdims.shapeCast_a_a1_apply _ shapeCasts_S1000_S1000x1 p 0).trans ?_
  unfold rowMax
  show max negInf (multiReduction .maximumf [1] S1000 x0 0xFF800000#32 reduces_S1000x32_S1000 (.inl rfl) rfl (ix1 p)) = _
  exact congrArg (max negInf ·) (Cert.LibRowOps.rowMax_apply x0 0xFF800000#32 reduces_S1000x32_S1000 (.inl rfl) rfl p)

theorem expV_apply (x0 : FVec Ideal S1000x32 .f32) (p : Fin 1000) (k : Fin 32) :
    expV x0 (ix2 p k) = expShift (fun k => x0 (ix2 p k)) k := by
  unfold expV expShift
  show Ideal.exp (shiftV x0 (ix2 p k)) = _
  rw [shiftV_apply]

theorem softV_apply (x0 : FVec Ideal S1000x32 .f32) (p : Fin 1000) (k : Fin 32) :
    softV x0 (ix2 p k) = softw (fun k => x0 (ix2 p k)) k := by
  unfold softV softw
  show Ideal.div (expV x0 (ix2 p k)) (broadcastTo S1000x32 _ broadcasts_S1000x1_S1000x32 (ix2 p k)) = _
  rw [expV_apply]
  refine congrArg (Ideal.div _ ·) ?_
  refine (Cert.LibKeepdims.rowSum_column_apply (expV x0) reduces_S1000x32_S1000 (.inl rfl) rfl shapeCasts_S1000_S1000x1
    broadcasts_S1000x1_S1000x32 p k).trans ?_
  exact Finset.sum_congr rfl fun k' _ => expV_apply x0 p k'

theorem aggV_apply (x0 : FVec Ideal S1000x32 .f32) (x1 : FVec Ideal S1000x32x128 .f32) (p : Fin 1000) (j : Fin 128) :
    aggV x0 x1 (ix2 p j) = agg (fun k => x0 (ix2 p k)) (fun k j => x1 (ix3 p k j)) j := by
  unfold aggV agg
  refine (Cert.LibRowOps.midSum_apply _ 0x00000000#32 reduces_S1000x32x128_S1000x128 (.inl rfl) rfl p j).trans ?_
  refine Finset.sum_congr rfl fun k _ => ?_
  rw [shapeCast_self]
  show broadcastTo S1000x32x128 _ broadcasts_S1000x32x1_S1000x32x128 (ix3 p k j) * x1 (ix3 p k j) = _
  refine congrArg (· * x1 (ix3 p k j)) ?_
  refine (Cert.LibRowOps.broadcastTo_ab1_abc_apply _ broadcasts_S1000x32x1_S1000x32x128 p k j).trans ?_
  refine (Cert.LibRowOps.shapeCast_ab_ab1_apply _ shapeCasts_S1000x32_S1000x32x1 p k 0).trans ?_
  exact softV_apply x0 p k

/-- THE STORED VALUE AT `(p, q)`: the specification's row function on row `p` of the weights block, slab `p` of the
    features block, the matrix block and the bias row. -/
theorem payload_apply (x0 : FVec Ideal S1000x32 .f32) (x1 : FVec Ideal S1000x32x128 .f32) (x2 : FVec Ideal S128x128 .f32)
    (x3 : FVec Ideal S1x128 .f32) (p : Fin 1000) (q : Fin 128) :
    k0_pay1 (F := Ideal) x0 x1 x2 x3 (ix2 p q)
      = rowOut (fun k => x0 (ix2 p k)) (fun k j => x1 (ix3 p k j)) (fun j d => x2 (ix2 j d))
          (fun d => x3 (ix2 (0 : Fin 1) d)) q := by
  rw [pay_eq]
  unfold rowOut
  show matmul D none (aggV x0 x1) x2 (constant (F := Ideal) S1000x128 .f32 0x00000000#32) (ix2 p q)
      + broadcastTo S1000x128 (shapeCast S1x128 x3 shapeCasts_S1x128_S1x128) broadcasts_S1x128_S1000x128 (ix2 p q) = _
  refine congrArg₂ (· + ·) ?_ ?_
  · refine (matmul_entry (aggV x0 x1) x2 p q).trans ?_
    exact Finset.sum_congr rfl fun j _ => congrArg (· * x2 (ix2 j q)) (aggV_apply x0 x1 p j)
  · exact Cert.LibKeepdims.row_spread_apply x3 shapeCasts_S1x128_S1x128 broadcasts_S1x128_S1000x128 p q

end Cert.KernelIdeal.RowValue

end
-- ==== Proof.KernelArrays.lean ====
/-
  What the kernel's call is handed.

  Before the call the host prepares three of its four operands: the weights (the 100001×1 table flattened to a vector
  and looked up at every node's every neighbour index, the index first moved into range from the end when negative),
  the features (the flat array's rows regrouped 32 to a node) and the bias as one row. Read at an entry these are the
  specification's `weights`, `features` and `biasRow` of the argument arrays; the matrix is handed over as it is.
-/
import proofs.«112594_j50491635532346_2_alg».proof.Proof.Gen.KernelIdeal.Frame
import proofs.«112594_j50491635532346_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo Cert.NeighborAgg

variable (m : (ℓ : Loc nD τ sig) → Buf (Elt Ideal) ℓ)

/-! ## The lookup of a flattened table -/

/-- The start indices the host builds from the neighbour indices: each moved into range from the end when negative,
    then given a trailing unit axis. -/
def startIdx (ids : IVec S50000x32 32) : IVec S50000x32x1 32 :=
  broadcastInDim S50000x32x1 ![0, 1] bcast_S50000x32_S50000x32x1_0_1
    (select (cmpi .slt ids (broadcastInDim S50000x32 ![] bcast_S_S50000x32 (constantI S_ 32 0#32)))
      (addi ids (broadcastInDim S50000x32 ![] bcast_S_S50000x32 (constantI S_ 32 100001#32))) ids)

/-- A start index at `(r, k, 0)` is the neighbour index `(r, k)` moved into range. -/
theorem startIdx_entry (ids : IVec S50000x32 32) (r : Fin 50000) (k : Fin 32) :
    startIdx ids (ix3 r k (0 : Fin 1)) = wrapIdx (ids (ix2 r k)) := by
  unfold startIdx
  refine (broadcastInDim_apply _ bcast_S50000x32_S50000x32x1_0_1 _ (ix3 r k (0 : Fin 1)) (ix2 r k) (fun a => ?_)).trans rfl
  match a with
  | ⟨0, _⟩ => show r.val = if (50000 : Nat) = 1 then 0 else r.val; rw [if_neg (by decide)]
  | ⟨1, _⟩ => show k.val = if (32 : Nat) = 1 then 0 else k.val; rw [if_neg (by decide)]

/-- The lookup of the flattened table at `(r, k)`: the table's row named by the start index at `(r, k, 0)`, read
    signed and clamped into the table, in its one column. -/
theorem lookup_entry (tbl : S100001x1.Idx → Ideal .f32) (idx : IVec S50000x32x1 32) (r : Fin 50000) (k : Fin 32)
    (w : BitVec 32) (hw : idx (ix3 r k (0 : Fin 1)) = w) :
    Host.gather gather_S100001_S50000x32x1_S50000x32_n_0_n_n_0_2_1
        (shapeCast S100001 tbl shapeCasts_S100001x1_S100001) idx (ix2 r k)
      = tbl (ix2 (⟨min w.toInt.toNat 100000, by omega⟩ : Fin 100001) (0 : Fin 1)) := by
  subst hw
  show Host.gather (takeDims 100001 50000 32 gather_S100001_S50000x32x1_S50000x32_n_0_n_n_0_2_1_wf)
      (shapeCast S100001 tbl shapeCasts_S100001x1_S100001) idx (ix2 r k) = _
  refine (gather_take_apply (by decide) gather_S100001_S50000x32x1_S50000x32_n_0_n_n_0_2_1_wf _ idx (ix2 r k)).trans ?_
  have ht : takeIdx (ix2 r k) = ix3 r k (0 : Fin 1) :=
    funext fun a => Fin.ext (by match a with | ⟨0, _⟩ => rfl | ⟨1, _⟩ => rfl | ⟨2, _⟩ => rfl)
  refine shapeCast_apply tbl shapeCasts_S100001x1_S100001 _ _ ?_
  rw [Shape.rowMajor_val_two, Shape.rowMajor_val_one]
  show min (idx (ix3 r k (0 : Fin 1))).toInt.toNat 100000 * 1 + 0
    = min (idx (takeIdx (ix2 r k))).toInt.toNat (100001 - 1)
  rw [ht]
  omega

/-! ## The operands of the call -/

/-- The weights operand is the lookup of the flattened table at the start indices. -/
theorem weights_term (c : Dev nD) :
    (V m c main_v7 : S50000x32.Idx → Ideal .f32)
      = Host.gather gather_S100001_S50000x32x1_S50000x32_n_0_n_n_0_2_1
          (shapeCast S100001 (m ((c : Thread nD τ).loc main_arg4)) shapeCasts_S100001x1_S100001)
          (startIdx (m ((c : Thread nD τ).loc main_arg3))) := by
  dsimp only [V, hostOps0]
  after_results
  rfl

/-- The weights operand is the specification's `weights` of the table and the neighbour indices. -/
theorem V_weights (c : Dev nD) :
    (V m c main_v7 : S50000x32.Idx → Ideal .f32)
      = weights (m ((c : Thread nD τ).loc main_arg4)) (m ((c : Thread nD τ).loc main_arg3)) := by
  rw [weights_term]
  funext i
  obtain ⟨r, k, rfl⟩ : ∃ (r : Fin 50000) (k : Fin 32), i = ix2 r k := ⟨i 0, i 1, eq_ix2 i⟩
  exact lookup_entry (m ((c : Thread nD τ).loc main_arg4)) _ r k _ (startIdx_entry _ r k)

/-- The features operand is the flat array regrouped. -/
theorem features_term (c : Dev nD) :
    (V m c main_v8 : S50000x32x128.Idx → Ideal .f32)
      = shapeCast S50000x32x128 (m ((c : Thread nD τ).loc main_arg1)) shapeCasts_S1600000x128_S50000x32x128 := by
  dsimp only [V, hostOps0]
  after_results
  rfl

/-- The features operand is the specification's `features` of the flat array. -/
theorem V_features (c : Dev nD) :
    (V m c main_v8 : S50000x32x128.Idx → Ideal .f32) = features (m ((c : Thread nD τ).loc main_arg1)) := by
  rw [features_term]
  funext i
  unfold features
  refine shapeCast_apply _ shapeCasts_S1600000x128_S50000x32x128 i _ ?_
  rw [Shape.rowMajor_val_two, Shape.rowMajor_val_three]
  rfl

/-- The bias operand is the bias vector as one row. -/
theorem bias_term (c : Dev nD) :
    (V m c main_v9 : S1x128.Idx → Ideal .f32)
      = shapeCast S1x128 (m ((c : Thread nD τ).loc main_arg6)) shapeCasts_S128_S1x128 := by
  dsimp only [V, hostOps0]
  after_results
  rfl

/-- The bias operand is the specification's `biasRow` of the bias vector. -/
theorem V_bias (c : Dev nD) :
    (V m c main_v9 : S1x128.Idx → Ideal .f32) = biasRow (m ((c : Thread nD τ).loc main_arg6)) := by
  rw [bias_term]
  funext i
  unfold biasRow
  refine shapeCast_apply _ shapeCasts_S128_S1x128 i _ ?_
  have h0 : (i 0).val < 1 := (i 0).isLt
  rw [Shape.rowMajor_val_one, Shape.rowMajor_val_two]
  show (i 1).val = (i 0).val * 128 + (i 1).val
  omega

end Cert.KernelIdeal.Arrays

end
-- ==== Proof.KernelBlocks.lean ====
/-
  From the 50 blocks to the whole result.

  Grid point `t` is handed rows `1000 t … 1000 t + 999` of the weights and of the features, the whole matrix and the
  bias row, and writes back rows `1000 t … 1000 t + 999` of the result. Entry `(p, q)` of what it writes is the
  specification's row function on node `1000 t + p`, so the block written is that block of the specification's
  result; row `r` of the result lies in the block of point `r / 1000`, so the blocks cover the array and the array
  after the run is the specification's result of the operands, that is of the argument arrays.
-/
import proofs.«112594_j50491635532346_2_alg».proof.Proof.Gen.KernelIdeal.Value
import proofs.«112594_j50491635532346_2_alg».proof.Proof.Spec
import proofs.«112594_j50491635532346_2_alg».proof.Proof.KernelRow
import proofs.«112594_j50491635532346_2_alg».proof.Proof.KernelArrays
import Idealize.ShloMosaic.Lib.Pipeline.Value
import Idealize.ShloMosaic.Lib.ValueIdx

set_option maxRecDepth 16384

noncomputable section

open scoped BigOperators

namespace Cert.KernelIdeal.BlockValue

open Cert.KernelIdeal Cert.KernelIdeal.Gen Idealize.ShloMosaic Idealize.ShloMosaic.TcCoe Idealize.SL.Sem
open Idealize.ShloMosaic.Pipeline (Dat)
open Idealize.ShloMosaic.ValueIdx Cert.NeighborAgg

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices at point `t`, decided over the grid: the weights, the features and the result move down by one
    block of rows per point; the matrix and the bias row stay. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One entry of a block: if row `p` of the weights block is row `r` of the weights, slab `p` of the features block
    slab `r` of the features, and the matrix and bias blocks are the matrix and the bias row, then the stored value at
    `(p, q)` is the specification's result at `(r, q)`. -/
theorem block_entry (wt : S50000x32.Idx → Ideal .f32) (ft : S50000x32x128.Idx → Ideal .f32) (W : S128x128.Idx → Ideal .f32)
    (b : S1x128.Idx → Ideal .f32) (x0 : Vec Ideal S1000x32 .f32) (x1 : Vec Ideal S1000x32x128 .f32)
    (x2 : Vec Ideal S128x128 .f32) (x3 : Vec Ideal S1x128 .f32) (p : Fin 1000) (q : Fin 128) (r : Fin 50000)
    (h0 : ∀ k : Fin 32, x0 (ix2 p k) = wt (ix2 r k))
    (h1 : ∀ (k : Fin 32) (j : Fin 128), x1 (ix3 p k j) = ft (ix3 r k j))
    (h2 : ∀ j d : Fin 128, x2 (ix2 j d) = W (ix2 j d))
    (h3 : ∀ d : Fin 128, x3 (ix2 (0 : Fin 1) d) = b (ix2 (0 : Fin 1) d)) :
    k0_pay1 (F := Ideal) x0 x1 x2 x3 (ix2 p q) = result wt ft W b (ix2 r q) := by
  rw [Cert.KernelIdeal.RowValue.payload_apply]
  have e0 : (fun k : Fin 32 => x0 (ix2 p k)) = fun k => wt (ix2 r k) := funext h0
  have e1 : (fun (k : Fin 32) (j : Fin 128) => x1 (ix3 p k j)) = fun k j => ft (ix3 r k j) :=
    funext fun k => funext (h1 k)
  have e2 : (fun j d : Fin 128 => x2 (ix2 j d)) = fun j d => W (ix2 j d) := funext fun j => funext (h2 j)
  have e3 : (fun d : Fin 128 => x3 (ix2 (0 : Fin 1) d)) = fun d => b (ix2 (0 : Fin 1) d) := funext h3
  rw [e0, e1, e2, e3]
  rfl

/-- WHAT POINT `t` WRITES BACK is block `t` of the specification's result of the operands. -/
theorem flushed_eq (c : Dev nD) (t : Fin cfg0.N) :
    (dats m 0 c).flushed 4 t = ((cfg0.win 4).blk t).view.read (Elt Ideal)
      (result (V m c main_v7) (V m c main_v8) (V m c main_arg5) (V m c main_v9)) := by
  rw [Cert.KernelIdeal.Value.flushed4]
  unfold out0_4
  rw [View.canon_unit_zero hz2]
  simp only [View.ld_unit_zero (S := S1000x32) hz2, View.ld_unit_zero (S := S1000x32x128) hz3,
    View.ld_unit_zero (S := S128x128) hz2, View.ld_unit_zero (S := S1x128) hz2]
  obtain ⟨f00, f01, f10, f11, f12, f20, f21, f30, f31, f40, f41⟩ := idx_facts t
  have ht : t.val < 50 := by
    have hlt : t.val < cfg0.N := t.isLt
    have hN : cfg0.N = 50 := N_0
    omega
  funext y
  obtain ⟨p, q, rfl⟩ : ∃ (p : Fin 1000) (q : Fin 128), y = ix2 p q := ⟨y 0, y 1, eq_ix2 y⟩
  have hp : p.val < 1000 := p.isLt
  have hr : t.val * 1000 + p.val < 50000 := by omega
  show k0_pay1 (F := Ideal) (iblk m c 0 t) (iblk m c 1 t) (iblk m c 2 t) (iblk m c 3 t) (ix2 p q)
      = result (V m c main_v7) (V m c main_v8) (V m c main_arg5) (V m c main_v9) (((cfg0.win 4).blk t).view.emb (ix2 p q))
  have hemb : ((cfg0.win 4).blk t).view.emb (ix2 p q) = ix2 (⟨t.val * 1000 + p.val, hr⟩ : Fin 50000) q := by
    funext a; apply Fin.ext
    match a with
    | ⟨0, _⟩ => show win0_4.index t (0 : Fin 2) * 1000 + 1 * p.val = t.val * 1000 + p.val; rw [f40]; omega
    | ⟨1, _⟩ => show win0_4.index t (1 : Fin 2) * 128 + 1 * q.val = q.val; rw [f41]; omega
  rw [hemb]
  refine block_entry _ _ _ _ (iblk m c 0 t) (iblk m c 1 t) (iblk m c 2 t) (iblk m c 3 t) p q _ ?_ ?_ ?_ ?_
  · intro k
    show V m c main_v7 (((cfg0.win 0).blk t).view.emb (ix2 p k)) = V m c main_v7 (ix2 (⟨t.val * 1000 + p.val, hr⟩ : Fin 50000) k)
    refine congrArg (V m c main_v7) (funext fun a => Fin.ext ?_)
    match a with
    | ⟨0, _⟩ => show win0_0.index t (0 : Fin 2) * 1000 + 1 * p.val = t.val * 1000 + p.val; rw [f00]; omega
    | ⟨1, _⟩ => show win0_0.index t (1 : Fin 2) * 32 + 1 * k.val = k.val; rw [f01]; omega
  · intro k j
    show V m c main_v8 (((cfg0.win 1).blk t).view.emb (ix3 p k j)) = V m c main_v8 (ix3 (⟨t.val * 1000 + p.val, hr⟩ : Fin 50000) k j)
    refine congrArg (V m c main_v8) (funext fun a => Fin.ext ?_)
    match a with
    | ⟨0, _⟩ => show win0_1.index t (0 : Fin 3) * 1000 + 1 * p.val = t.val * 1000 + p.val; rw [f10]; omega
    | ⟨1, _⟩ => show win0_1.index t (1 : Fin 3) * 32 + 1 * k.val = k.val; rw [f11]; omega
    | ⟨2, _⟩ => show win0_1.index t (2 : Fin 3) * 128 + 1 * j.val = j.val; rw [f12]; omega
  · intro j d
    show V m c main_arg5 (((cfg0.win 2).blk t).view.emb (ix2 j d)) = V m c main_arg5 (ix2 j d)
    refine congrArg (V m c main_arg5) (funext fun a => Fin.ext ?_)
    match a with
    | ⟨0, _⟩ => show win0_2.index t (0 : Fin 2) * 128 + 1 * j.val = j.val; rw [f20]; omega
    | ⟨1, _⟩ => show win0_2.index t (1 : Fin 2) * 128 + 1 * d.val = d.val; rw [f21]; omega
  · intro d
    show V m c main_v9 (((cfg0.win 3).blk t).view.emb (ix2 (0 : Fin 1) d)) = V m c main_v9 (ix2 (0 : Fin 1) d)
    refine congrArg (V m c main_v9) (funext fun a => Fin.ext ?_)
    match a with
    | ⟨0, _⟩ => show win0_3.index t (0 : Fin 2) * 1 + 1 * 0 = 0; rw [f30]
    | ⟨1, _⟩ => show win0_3.index t (1 : Fin 2) * 128 + 1 * d.val = d.val; rw [f31]; omega

/-- An index of the result is in point `t`'s block iff each coordinate is in the block's range on its axis. -/
theorem mem_blk (t : Fin cfg0.N) (i : S50000x128.Idx) :
    i ∈ ((cfg0.win 4).blk t).view.set ↔ ∀ a : Fin 2, win0_4.index t a * S1000x128.size a ≤ (i a).val
      ∧ (i a).val < win0_4.index t a * S1000x128.size a + S1000x128.size a := by
  show i ∈ ((View.whole main_v10).slice (win0_4.rect t)).set ↔ _
  rw [View.set_slice_whole, Rect.mem_set_unit]
  exact Iff.rfl

/-- Every index of the result is in the block of the point its row falls to: row `r` in point `r / 1000`'s. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 50 := N_0
  have hlt : (i 0).val / 1000 < cfg0.N := by rw [hN]; omega
  refine ⟨⟨(i 0).val / 1000, hlt⟩, flush0_4 _, ?_⟩
  rw [mem_blk]
  obtain ⟨-, -, -, -, -, -, -, -, -, f40, f41⟩ := idx_facts ⟨(i 0).val / 1000, hlt⟩
  intro a
  match a with
  | ⟨0, _⟩ =>
    show win0_4.index ⟨(i 0).val / 1000, hlt⟩ (0 : Fin 2) * 1000 ≤ (i 0).val
      ∧ (i 0).val < win0_4.index ⟨(i 0).val / 1000, hlt⟩ (0 : Fin 2) * 1000 + 1000
    rw [f40]
    show (i 0).val / 1000 * 1000 ≤ (i 0).val ∧ (i 0).val < (i 0).val / 1000 * 1000 + 1000
    omega
  | ⟨1, _⟩ =>
    show win0_4.index ⟨(i 0).val / 1000, hlt⟩ (1 : Fin 2) * 128 ≤ (i 1).val
      ∧ (i 1).val < win0_4.index ⟨(i 0).val / 1000, hlt⟩ (1 : Fin 2) * 128 + 128
    rw [f41]
    omega

/-- THE RESULT ARRAY after the run is the specification's result of the operands the call was handed. -/
theorem final_operands (c : Dev nD) :
    (dats m 0 c).arrAt 4 cfg0.N = result (V m c main_v7) (V m c main_v8) (V m c main_arg5) (V m c main_v9) :=
  (dats m 0 c).arrAt_eq_of_cover 4 _ (fun t _ => flushed_eq m c t) cover

/-- … that is, of the argument arrays. -/
theorem final (c : Dev nD) :
    (dats m 0 c).arrAt 4 cfg0.N
      = result (weights (m ((c : Thread nD τ).loc main_arg4)) (m ((c : Thread nD τ).loc main_arg3)))
          (features (m ((c : Thread nD τ).loc main_arg1))) (m ((c : Thread nD τ).loc main_arg5))
          (biasRow (m ((c : Thread nD τ).loc main_arg6))) := by
  rw [final_operands, Cert.KernelIdeal.Arrays.V_weights, Cert.KernelIdeal.Arrays.V_features,
    Cert.KernelIdeal.Arrays.V_bias, V_main_arg5]

/-- The run, read: the result array at the specification's result of the arguments, the arguments unchanged. -/
theorem run : θ_run defs (onTc (τ := τ) (main (F := Ideal))) ⟨m, fun _ => 0, ρ⟩ fun r => ∀ c : Dev nD,
      r.2.mem ((c : Thread nD τ).loc main_v10)
        = result (weights (m ((c : Thread nD τ).loc main_arg4)) (m ((c : Thread nD τ).loc main_arg3)))
            (features (m ((c : Thread nD τ).loc main_arg1))) (m ((c : Thread nD τ).loc main_arg5))
            (biasRow (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.BlockValue

end
-- ==== Proof.RefRow.lean ====
/-
  The reference, read at an entry.

  The reference looks each neighbour's weight up in the 100001×1 table (a lookup that yields a `[50000, 32, 1]`
  array, then flattened to `[50000, 32]`), takes the softmax of each row, multiplies the features (the flat array's
  rows regrouped 32 to a node) by the weights laid along the feature axis, sums over the neighbours, multiplies by
  the matrix and adds the bias. Stage by stage, at an entry, this is the specification's row function on row `r` of
  `weights` and slab `r` of `features`; the one algebraic step is that the reference writes feature × weight where
  the specification writes weight × feature.
-/
import proofs.«112594_j50491635532346_2_alg».proof.Proof.Gen.ReferenceIdeal.Read
import proofs.«112594_j50491635532346_2_alg».proof.Proof.Spec
import proofs.«112594_j50491635532346_2_alg».proof.Proof.LibRowOps
import Idealize.ShloMosaic.Lib.Pipeline.Value
import Idealize.ShloMosaic.Lib.ValueIdx
import Idealize.ShloMosaic.PureOps.Ideal.Laws

noncomputable section

open scoped BigOperators

namespace Cert.ReferenceIdeal.RowValue

open Cert.ReferenceIdeal Cert.ReferenceIdeal.Gen Cert.ReferenceIdeal.Read Idealize.ShloMosaic Idealize.ShloMosaic.ValueIdx
open Cert.NeighborAgg

variable (x1 : (⟨S1600000x128, .f32⟩ : BufTy).Contents (Elt Ideal)) (x3 : (⟨S50000x32, .i32⟩ : BufTy).Contents (Elt Ideal))
  (x4 : (⟨S100001x1, .f32⟩ : BufTy).Contents (Elt Ideal)) (x5 : (⟨S128x128, .f32⟩ : BufTy).Contents (Elt Ideal))
  (x6 : (⟨S128, .f32⟩ : BufTy).Contents (Elt Ideal))

/-! ## The table lookup -/

/-- The lookup's dimension numbers: one start index per result entry, along the table's rows; the table's one
    column is kept as the result's last axis. -/
abbrev GR : GatherDims S100001x1 S50000x32x1 S50000x32x1 := gather_S100001x1_S50000x32x1_S50000x32x1_2_0_n_n_0_2_11

/-- The lookup at `(r, k, u)`: the table's row named by the start index at `(r, k, 0)`, read signed and clamped into
    the table, in its one column. -/
theorem gather_entry (tbl : S100001x1.Idx → Ideal .f32) (idx : IVec S50000x32x1 32) (r : Fin 50000) (k : Fin 32) (u : Fin 1)
    (w : BitVec 32) (hw : idx (ix3 r k (0 : Fin 1)) = w) :
    Host.gather GR tbl idx (ix3 r k u)
      = tbl (ix2 (⟨min w.toInt.toNat 100000, by omega⟩ : Fin 100001) (0 : Fin 1)) := by
  subst hw
  unfold Host.gather
  congr 1
  funext a
  refine Fin.ext ?_
  match a with
  | ⟨0, _⟩ =>
    show GR.start (ix3 r k u) idx 0 + GR.batchCoord (ix3 r k u) 0 + GR.offCoord (ix3 r k u) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GR.startIndexMap from List.mem_singleton.mpr rfl)]
    have hsi : GR.siIdx (ix3 r k u) ⟨List.idxOf (0 : Fin 2) GR.startIndexMap,
        List.idxOf_lt_length_iff.2 (List.mem_singleton.mpr rfl)⟩ = ix3 r k (0 : Fin 1) := by
      funext b; refine Fin.ext ?_
      match b with
      | ⟨0, _⟩ => rfl
      | ⟨1, _⟩ => rfl
      | ⟨2, _⟩ => rfl
    rw [hsi]
    rfl
  | ⟨1, _⟩ =>
    have h1 : (GR.operandIdx (ix3 r k u) idx 1).val < 1 := (GR.operandIdx (ix3 r k u) idx 1).isLt
    show (GR.operandIdx (ix3 r k u) idx 1).val = 0
    omega

/-- The start index at `(r, k, 0)` is the neighbour index moved into range from the end when negative. -/
theorem index_entry (r : Fin 50000) (k : Fin 32) :
    val_main_v5 (F := Ideal) x3 (ix3 r k (0 : Fin 1)) = wrapIdx (x3 (ix2 r k)) := by
  rw [val_main_v5_apply]
  have e : idx_main_v5 (ix3 r k (0 : Fin 1)) = ix2 r k :=
    funext fun a => Fin.ext (by match a with | ⟨0, _⟩ => rfl | ⟨1, _⟩ => rfl)
  rw [e]
  rfl

/-- The flattened lookup at `(r, k)` is the specification's weight. -/
theorem weights_entry (r : Fin 50000) (k : Fin 32) :
    val_main_v7 (F := Ideal) x3 x4 (ix2 r k) = weights x4 x3 (ix2 r k) := by
  rw [val_main_v7_apply]
  have e : idx_main_v7 (ix2 r k) = ix3 r k (0 : Fin 1) := funext fun a => Fin.ext (by
    have hr : r.val < 50000 := r.isLt
    have hk : k.val < 32 := k.isLt
    match a with
    | ⟨0, _⟩ => show (r.val * 32 + k.val) / 32 = r.val; omega
    | ⟨1, _⟩ => show (r.val * 32 + k.val) / 1 % 32 = k.val; omega
    | ⟨2, _⟩ => rfl)
  rw [e]
  exact gather_entry x4 (val_main_v5 (F := Ideal) x3) r k 0 _ (index_entry x3 r k)

/-! ## The softmax -/

/-- The row maximum laid along the row is the specification's. -/
theorem rowmax_entry (r : Fin 50000) (k : Fin 32) :
    val_main_v12 (F := Ideal) x3 x4 (ix2 r k) = rowMax (fun k => weights x4 x3 (ix2 r k)) := by
  rw [val_main_v12_apply, val_main_v11_apply, val_main_v10_apply]
  have e : idx_main_v11 (idx_main_v12 (ix2 r k)) = ix1 r :=
    funext fun a => Fin.ext (by match a with | ⟨0, _⟩ => rfl)
  rw [e]
  unfold rowMax
  show max negInf (val_main_v8 (F := Ideal) x3 x4 (ix1 r)) = _
  refine congrArg (max negInf ·) ?_
  unfold val_main_v8
  refine (Cert.LibRowOps.hostRowMax_apply (val_main_v7 (F := Ideal) x3 x4) (val_main_cst (F := Ideal))
    reducesTo_S50000x32_S50000_d1 (by decide) h_S_ r).trans ?_
  have hf : (fun k : Fin 32 => val_main_v7 (F := Ideal) x3 x4 (ix2 r k)) = fun k => weights x4 x3 (ix2 r k) :=
    funext fun k => weights_entry x3 x4 r k
  rw [hf]
  rfl

/-- The shifted exponential. -/
theorem exp_entry (r : Fin 50000) (k : Fin 32) :
    val_main_v14 (F := Ideal) x3 x4 (ix2 r k) = expShift (fun k => weights x4 x3 (ix2 r k)) k := by
  rw [val_main_v14_apply, val_main_v13_apply, weights_entry, rowmax_entry]
  rfl

/-- The zero word is zero. -/
theorem zero_word : val_main_cst_2 (F := Ideal) (Shape.Idx.first h_S_) = 0 := Ideal.ofBits_zero_f32

/-- The softmax weight. -/
theorem soft_entry (r : Fin 50000) (k : Fin 32) :
    val_main_v18 (F := Ideal) x3 x4 (ix2 r k) = softw (fun k => weights x4 x3 (ix2 r k)) k := by
  rw [val_main_v18_apply, val_main_v17_apply, val_main_v16_apply]
  have e : idx_main_v16 (idx_main_v17 (ix2 r k)) = ix1 r :=
    funext fun a => Fin.ext (by match a with | ⟨0, _⟩ => rfl)
  rw [e, val_main_v15_apply, exp_entry, zero_word, zero_add]
  unfold softw
  show Ideal.div _ _ = Ideal.div _ _
  refine congrArg (Ideal.div _ ·) (Finset.sum_congr rfl fun k' _ => ?_)
  have e1 : idx_main_v15 (ix1 r) k' = ix2 r k' :=
    funext fun a => Fin.ext (by match a with | ⟨0, _⟩ => rfl | ⟨1, _⟩ => rfl)
  rw [e1]
  exact exp_entry x3 x4 r k'

/-! ## The weighted sum, the product and the bias -/

/-- The regrouped flat array at `(r, k, j)` is the specification's feature. -/
theorem features_entry (r : Fin 50000) (k : Fin 32) (j : Fin 128) :
    x1 (idx_main_v20 (ix3 r k j)) = features x1 (ix3 r k j) := by
  unfold features
  refine congrArg x1 (funext fun a => Fin.ext ?_)
  have hr : r.val < 50000 := r.isLt
  have hk : k.val < 32 := k.isLt
  have hj : j.val < 128 := j.isLt
  match a with
  | ⟨0, _⟩ => show ((r.val * 32 + k.val) * 128 + j.val) / 128 = r.val * 32 + k.val; omega
  | ⟨1, _⟩ => show ((r.val * 32 + k.val) * 128 + j.val) % 128 = j.val; omega

/-- A zero word again (the second sum's initial value). -/
theorem zero_word' : val_main_cst_3 (F := Ideal) (Shape.Idx.first h_S_) = 0 := Ideal.ofBits_zero_f32

/-- The weighted neighbour feature. -/
theorem agg_entry (r : Fin 50000) (j : Fin 128) :
    val_main_v23 (F := Ideal) x1 x3 x4 (ix2 r j)
      = agg (fun k => weights x4 x3 (ix2 r k)) (fun k j => features x1 (ix3 r k j)) j := by
  rw [val_main_v23_apply, zero_word', zero_add]
  unfold agg
  refine Finset.sum_congr rfl fun k _ => ?_
  have e1 : idx_main_v23 (ix2 r j) k = ix3 r k j :=
    funext fun a => Fin.ext (by match a with | ⟨0, _⟩ => rfl | ⟨1, _⟩ => rfl | ⟨2, _⟩ => rfl)
  rw [e1, val_main_v22_apply, val_main_v21_apply, val_main_v19_apply, val_main_v20_apply]
  have e2 : idx_main_v19 (idx_main_v21 (ix3 r k j)) = ix2 r k :=
    funext fun a => Fin.ext (by match a with | ⟨0, _⟩ => rfl | ⟨1, _⟩ => rfl)
  rw [e2, soft_entry, features_entry x1 r k j]
  exact mul_comm _ _

/-- THE REFERENCE'S RESULT is the specification's, of the weights, the features, the matrix and the bias row. -/
theorem result_eq :
    val_main_v27 (F := Ideal) x1 x3 x4 x5 x6 = result (weights x4 x3) (features x1) x5 (biasRow x6) := by
  funext i
  obtain ⟨r, q, rfl⟩ : ∃ (r : Fin 50000) (q : Fin 128), i = ix2 r q := ⟨i 0, i 1, eq_ix2 i⟩
  rw [val_main_v27_apply, val_main_v24_apply, val_main_v26_apply, val_main_v25_apply]
  unfold result rowOut
  show (∑ k : Fin 128, val_main_v23 (F := Ideal) x1 x3 x4 (lidx_main_v24 (ix2 r q) k) * x5 (ridx_main_v24 (ix2 r q) k))
        + x6 (idx_main_v25 (idx_main_v26 (ix2 r q)))
      = (∑ j : Fin 128, agg (fun k => weights x4 x3 (ix2 r k)) (fun k j => features x1 (ix3 r k j)) j * x5 (ix2 j q))
        + biasRow x6 (ix2 (0 : Fin 1) q)
  refine congrArg₂ (· + ·) (Finset.sum_congr rfl fun j _ => ?_) ?_
  · have el : lidx_main_v24 (ix2 r q) j = ix2 r j :=
      funext fun a => Fin.ext (by match a with | ⟨0, _⟩ => rfl | ⟨1, _⟩ => rfl)
    have er : ridx_main_v24 (ix2 r q) j = ix2 j q :=
      funext fun a => Fin.ext (by match a with | ⟨0, _⟩ => rfl | ⟨1, _⟩ => rfl)
    rw [el, er, agg_entry]
  · unfold biasRow
    exact congrArg x6 (funext fun a => Fin.ext (by match a with | ⟨0, _⟩ => rfl))

end Cert.ReferenceIdeal.RowValue

end
-- ==== Proof.lean ====
/-
  A softmax-weighted sum of neighbour features, then a linear layer: the kernel against its reference, on the
  extended reals.

  For each of 50000 nodes both programs look up 32 scalar weights in a table of 100001 (an index read signed, moved
  into range from the end when negative, clamped to the table), take the softmax of the 32 weights (the maximum
  from -∞ subtracted, exponentials, divided by their sum), use them to weight the node's 32 neighbour feature rows
  (rows 32 r … 32 r + 31 of a flat 1600000×128 array), sum the weighted rows, multiply by a 128×128 matrix and add a
  bias. The kernel does the lookup on the host, then runs 50 grid points of 1000 nodes each; the reference does
  everything on whole arrays. Both results are ONE function of the argument arrays, `Cert.NeighborAgg.result` of the
  weights, the features, the matrix and the bias row:

  * the kernel's block at a grid point, entry by entry, is that function's block (the row maximum, the two row sums
    and the matrix product read as a fold and as sums over the row), and the 50 blocks cover the array;
  * the reference's stages, entry by entry, are the same function; the reference multiplies feature × weight where the
    kernel multiplies weight × feature, which is the same product on the extended reals, infinities included.

  No step uses that the inputs are finite. The two lookups differ in shape only (a flattened table against a
  one-column table whose lookup is flattened afterwards) and read the same table row. The idealization rewrote
  nothing, so there is nothing to preserve; the three frames are the generated runs.
-/
import proofs.«112594_j50491635532346_2_alg».proof.Defs
import proofs.«112594_j50491635532346_2_alg».proof.Proof.Gen.Kernel
import proofs.«112594_j50491635532346_2_alg».proof.Proof.Gen.Kernel.Skeleton
import proofs.«112594_j50491635532346_2_alg».proof.Proof.Gen.Kernel.Launch
import proofs.«112594_j50491635532346_2_alg».proof.Proof.Gen.Kernel.Points
import proofs.«112594_j50491635532346_2_alg».proof.Proof.Gen.Kernel.Frame
import proofs.«112594_j50491635532346_2_alg».proof.Proof.Gen.KernelIdeal
import proofs.«112594_j50491635532346_2_alg».proof.Proof.Gen.KernelIdeal.Skeleton
import proofs.«112594_j50491635532346_2_alg».proof.Proof.Gen.KernelIdeal.Launch
import proofs.«112594_j50491635532346_2_alg».proof.Proof.Gen.KernelIdeal.Points
import proofs.«112594_j50491635532346_2_alg».proof.Proof.Gen.KernelIdeal.Frame
import proofs.«112594_j50491635532346_2_alg».proof.Proof.Gen.ReferenceIdeal
import proofs.«112594_j50491635532346_2_alg».proof.Proof.Gen.Pre_finite_inputs
import proofs.«112594_j50491635532346_2_alg».proof.Proof.Gen.KernelIdeal.Value
import proofs.«112594_j50491635532346_2_alg».proof.Proof.Gen.ReferenceIdeal.Run
import proofs.«112594_j50491635532346_2_alg».proof.Proof.Gen.ReferenceIdeal.Read
import proofs.«112594_j50491635532346_2_alg».proof.Proof.KernelBlocks
import proofs.«112594_j50491635532346_2_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments both programs end with the specification's result of the arguments:
    the kernel by its blocks, the reference stage by stage. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RowValue.result_eq]
  obtain ⟨-, h1, -, h3, h4, h5, h6⟩ := hagree c
  rw [h1, h3, h4, h5, h6]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
